-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S8x1152x128x128 : Shape := ⟨4, ![8, 1152, 128, 128]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel
  bcast_S_S8x1152x128x128 : S_.BroadcastsInDim S8x1152x128x128 (![] : Fin 0 → Fin S8x1152x128x128.rank)
  reducesTo_S8x1152x128x128_S_d0_1_2_3 : S8x1152x128x128.ReducesTo [0, 1, 2, 3] S_

variable [Facts]

def fn {F : FTy → Type} [FloatOps F] (main_arg0 : FVec F S8x128x128x128 .f32) (main_arg1 : FVec F S8x1152x128x128 .f32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_v4 : FVec F S8x1152x128x128 .f32 := Host.absf main_arg1
  let main_cst_0 : FVec F S_ .f32 := constant S_ .f32 0x7F800000#32
  let main_v5 : FVec F S8x1152x128x128 .f32 := broadcastInDim S8x1152x128x128 ![] bcast_S_S8x1152x128x128 main_cst_0
  let main_v6 : IVec S8x1152x128x128 1 := cmpf .olt main_v4 main_v5
  let main_c_1 : IVec S_ 1 := constantI S_ 1 1#1
  let main_v7 : IVec S_ 1 := (fun x v => Host.reduce IntOp.andi x v reducesTo_S8x1152x128x128_S_d0_1_2_3 h_S_) main_v6 main_c_1
  let main_v8 : IVec S_ 1 := andi main_v3 main_v7
  main_v8
-- ==== Kernel.lean ====
abbrev S8x128x128x128 : Shape := ⟨4, ![8, 128, 128, 128]⟩
abbrev S8x1152x128x128 : Shape := ⟨4, ![8, 1152, 128, 128]⟩
abbrev S_ : Shape := ⟨0, ![]⟩
abbrev S8x128x130x130 : Shape := ⟨4, ![8, 128, 130, 130]⟩
abbrev S1x16x130x130 : Shape := ⟨4, ![1, 16, 130, 130]⟩
abbrev S1x144x128x128 : Shape := ⟨4, ![1, 144, 128, 128]⟩
abbrev S1x16x128x128 : Shape := ⟨4, ![1, 16, 128, 128]⟩
abbrev S144x128x128 : Shape := ⟨3, ![144, 128, 128]⟩
abbrev S16x9x128x128 : Shape := ⟨4, ![16, 9, 128, 128]⟩
abbrev S16x128x128 : Shape := ⟨3, ![16, 128, 128]⟩
abbrev S16x1x128x128 : Shape := ⟨4, ![16, 1, 128, 128]⟩

abbrev nBuf : Space → Nat
  | .hbm => 6
  | .vmem => 6
  | .smem => 0
  | _ => 0

abbrev bufTy : (tb : Table) → Fin (tcTables nBuf tb) → BufTy
  | .hbm, ⟨0, _⟩ => ⟨S8x128x128x128, .f32⟩
  | .hbm, ⟨1, _⟩ => ⟨S8x1152x128x128, .f32⟩
  | .hbm, ⟨2, _⟩ => ⟨S_, .i32⟩
  | .hbm, ⟨3, _⟩ => ⟨S_, .f32⟩
  | .hbm, ⟨4, _⟩ => ⟨S8x128x130x130, .f32⟩
  | .hbm, ⟨5, _⟩ => ⟨S8x128x128x128, .f32⟩
  | .local _ .vmem, ⟨0, _⟩ => ⟨S1x16x130x130, .f32⟩
  | .local _ .vmem, ⟨1, _⟩ => ⟨S1x16x130x130, .f32⟩
  | .local _ .vmem, ⟨2, _⟩ => ⟨S1x144x128x128, .f32⟩
  | .local _ .vmem, ⟨3, _⟩ => ⟨S1x144x128x128, .f32⟩
  | .local _ .vmem, ⟨4, _⟩ => ⟨S1x16x128x128, .f32⟩
  | .local _ .vmem, ⟨5, _⟩ => ⟨S1x16x128x128, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x130x130 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x144x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x128x128x128_S8x128x130x130_000_000_110_110 : S8x128x128x128.Pads (![0, 0, 1, 1] : Fin 4 → Nat) ![0, 0, 1, 1] ![0, 0, 0, 0] S8x128x130x130
  h_S_ : 0 < S_.numel
  inb_S1x144x128x128_S1x144x128x128_0_0_0_0 : ∀ a, (![0, 0, 0, 0] : Fin 4 → Nat) a + S1x144x128x128.size a ≤ S1x144x128x128.size a
  h_S1x144x128x128 : 0 < S1x144x128x128.numel
  shapeCasts_S1x144x128x128_S144x128x128 : S1x144x128x128.ShapeCasts S144x128x128
  shapeCasts_S144x128x128_S16x9x128x128 : S144x128x128.ShapeCasts S16x9x128x128
  inb_S1x16x130x130_S1x16x128x128_0_0_0_0 : ∀ a, (![0, 0, 0, 0] : Fin 4 → Nat) a + S1x16x128x128.size a ≤ S1x16x130x130.size a
  h_S1x16x128x128 : 0 < S1x16x128x128.numel
  shapeCasts_S1x16x128x128_S16x128x128 : S1x16x128x128.ShapeCasts S16x128x128
  slices_S16x9x128x128_o0_0_0_0_S16x1x128x128 : S16x9x128x128.Slices ![0, 0, 0, 0] S16x1x128x128
  shapeCasts_S16x1x128x128_S16x128x128 : S16x1x128x128.ShapeCasts S16x128x128
  inb_S1x16x130x130_S1x16x128x128_0_0_0_1 : ∀ a, (![0, 0, 0, 1] : Fin 4 → Nat) a + S1x16x128x128.size a ≤ S1x16x130x130.size a
  slices_S16x9x128x128_o0_1_0_0_S16x1x128x128 : S16x9x128x128.Slices ![0, 1, 0, 0] S16x1x128x128
  inb_S1x16x130x130_S1x16x128x128_0_0_0_2 : ∀ a, (![0, 0, 0, 2] : Fin 4 → Nat) a + S1x16x128x128.size a ≤ S1x16x130x130.size a
  slices_S16x9x128x128_o0_2_0_0_S16x1x128x128 : S16x9x128x128.Slices ![0, 2, 0, 0] S16x1x128x128
  inb_S1x16x130x130_S1x16x128x128_0_0_1_0 : ∀ a, (![0, 0, 1, 0] : Fin 4 → Nat) a + S1x16x128x128.size a ≤ S1x16x130x130.size a
  slices_S16x9x128x128_o0_3_0_0_S16x1x128x128 : S16x9x128x128.Slices ![0, 3, 0, 0] S16x1x128x128
  inb_S1x16x130x130_S1x16x128x128_0_0_1_1 : ∀ a, (![0, 0, 1, 1] : Fin 4 → Nat) a + S1x16x128x128.size a ≤ S1x16x130x130.size a
  slices_S16x9x128x128_o0_4_0_0_S16x1x128x128 : S16x9x128x128.Slices ![0, 4, 0, 0] S16x1x128x128
  inb_S1x16x130x130_S1x16x128x128_0_0_1_2 : ∀ a, (![0, 0, 1, 2] : Fin 4 → Nat) a + S1x16x128x128.size a ≤ S1x16x130x130.size a
  slices_S16x9x128x128_o0_5_0_0_S16x1x128x128 : S16x9x128x128.Slices ![0, 5, 0, 0] S16x1x128x128
  inb_S1x16x130x130_S1x16x128x128_0_0_2_0 : ∀ a, (![0, 0, 2, 0] : Fin 4 → Nat) a + S1x16x128x128.size a ≤ S1x16x130x130.size a
  slices_S16x9x128x128_o0_6_0_0_S16x1x128x128 : S16x9x128x128.Slices ![0, 6, 0, 0] S16x1x128x128
  inb_S1x16x130x130_S1x16x128x128_0_0_2_1 : ∀ a, (![0, 0, 2, 1] : Fin 4 → Nat) a + S1x16x128x128.size a ≤ S1x16x130x130.size a
  slices_S16x9x128x128_o0_7_0_0_S16x1x128x128 : S16x9x128x128.Slices ![0, 7, 0, 0] S16x1x128x128
  inb_S1x16x130x130_S1x16x128x128_0_0_2_2 : ∀ a, (![0, 0, 2, 2] : Fin 4 → Nat) a + S1x16x128x128.size a ≤ S1x16x130x130.size a
  slices_S16x9x128x128_o0_8_0_0_S16x1x128x128 : S16x9x128x128.Slices ![0, 8, 0, 0] S16x1x128x128
  inb_S1x16x128x128_S1x16x128x128_0_0_0_0 : ∀ a, (![0, 0, 0, 0] : Fin 4 → Nat) a + S1x16x128x128.size a ≤ S1x16x128x128.size a
  shapeCasts_S16x128x128_S1x16x128x128 : S16x128x128.ShapeCasts S1x16x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x130x130.size a ≤ S8x128x130x130.size a
  hwx0_0 : ∀ i : grid0.Coords, EltTy.bits .f32 = 32 ∨ (Rect.block (s := S8x128x130x130) S1x16x130x130.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x144x128x128.size a ≤ S8x1152x128x128.size a
  hwx0_1 : ∀ i : grid0.Coords, EltTy.bits .f32 = 32 ∨ (Rect.block (s := S8x1152x128x128) S1x144x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x128.size a ≤ S8x128x128x128.size a
  hwx0_2 : ∀ i : grid0.Coords, EltTy.bits .f32 = 32 ∨ (Rect.block (s := S8x128x128x128) S1x16x128x128.size (cc0_transform_2 i) (hinb0_2 i)).WholeWords (EltTy.packing .f32)

variable [Facts₀]

abbrev win0_0 : Pipeline.Window sig grid0 :=
  Pipeline.Window.ofSpec (Memref.whole main_v0) S1x16x130x130.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x144x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x128x128 : Shape := ⟨4, ![8, 128, 128, 128]⟩
abbrev S8x1152x128x128 : Shape := ⟨4, ![8, 1152, 128, 128]⟩
abbrev S_ : Shape := ⟨0, ![]⟩
abbrev S8x128x130x130 : Shape := ⟨4, ![8, 128, 130, 130]⟩
abbrev S8x128x1x128x128 : Shape := ⟨5, ![8, 128, 1, 128, 128]⟩
abbrev S8x128x9x128x128 : Shape := ⟨5, ![8, 128, 9, 128, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x128x128x128, .f32⟩
  | .hbm, ⟨1, _⟩ => ⟨S8x1152x128x128, .f32⟩
  | .hbm, ⟨2, _⟩ => ⟨S_, .i32⟩
  | .hbm, ⟨3, _⟩ => ⟨S_, .f32⟩
  | .hbm, ⟨4, _⟩ => ⟨S8x128x130x130, .f32⟩
  | .hbm, ⟨5, _⟩ => ⟨S8x128x128x128, .f32⟩
  | .hbm, ⟨6, _⟩ => ⟨S8x128x128x128, .f32⟩
  | .hbm, ⟨7, _⟩ => ⟨S8x128x128x128, .f32⟩
  | .hbm, ⟨8, _⟩ => ⟨S8x128x128x128, .f32⟩
  | .hbm, ⟨9, _⟩ => ⟨S8x128x128x128, .f32⟩
  | .hbm, ⟨10, _⟩ => ⟨S8x128x128x128, .f32⟩
  | .hbm, ⟨11, _⟩ => ⟨S8x128x128x128, .f32⟩
  | .hbm, ⟨12, _⟩ => ⟨S8x128x128x128, .f32⟩
  | .hbm, ⟨13, _⟩ => ⟨S8x128x128x128, .f32⟩
  | .hbm, ⟨14, _⟩ => ⟨S8x128x1x128x128, .f32⟩
  | .hbm, ⟨15, _⟩ => ⟨S8x128x1x128x128, .f32⟩
  | .hbm, ⟨16, _⟩ => ⟨S8x128x1x128x128, .f32⟩
  | .hbm, ⟨17, _⟩ => ⟨S8x128x1x128x128, .f32⟩
  | .hbm, ⟨18, _⟩ => ⟨S8x128x1x128x128, .f32⟩
  | .hbm, ⟨19, _⟩ => ⟨S8x128x1x128x128, .f32⟩
  | .hbm, ⟨20, _⟩ => ⟨S8x128x1x128x128, .f32⟩
  | .hbm, ⟨21, _⟩ => ⟨S8x128x1x128x128, .f32⟩
  | .hbm, ⟨22, _⟩ => ⟨S8x128x1x128x128, .f32⟩
  | .hbm, ⟨23, _⟩ => ⟨S8x128x9x128x128, .f32⟩
  | .hbm, ⟨24, _⟩ => ⟨S8x128x9x128x128, .f32⟩
  | .hbm, ⟨25, _⟩ => ⟨S8x128x9x128x128, .f32⟩
  | .hbm, ⟨26, _⟩ => ⟨S_, .f32⟩
  | .hbm, ⟨27, _⟩ => ⟨S8x128x128x128, .f32⟩
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩

abbrev nD : Nat := 1
abbrev τ : Topo := Topo.v7x

variable {F : FTy → Type} [FloatOps F]

class Facts₀ : Prop where
  pads_S8x128x128x128_S8x128x130x130_000_000_110_110 : S8x128x128x128.Pads (![0, 0, 1, 1] : Fin 4 → Nat) ![0, 0, 1, 1] ![0, 0, 0, 0] S8x128x130x130
  h_S_ : 0 < S_.numel
  slices_S8x128x130x130_S8x128x128x128_0_0_0_0 : S8x128x130x130.Slices ![0, 0, 0, 0] S8x128x128x128
  slices_S8x128x130x130_S8x128x128x128_0_0_0_1 : S8x128x130x130.Slices ![0, 0, 0, 1] S8x128x128x128
  slices_S8x128x130x130_S8x128x128x128_0_0_0_2 : S8x128x130x130.Slices ![0, 0, 0, 2] S8x128x128x128
  slices_S8x128x130x130_S8x128x128x128_0_0_1_0 : S8x128x130x130.Slices ![0, 0, 1, 0] S8x128x128x128
  slices_S8x128x130x130_S8x128x128x128_0_0_1_1 : S8x128x130x130.Slices ![0, 0, 1, 1] S8x128x128x128
  slices_S8x128x130x130_S8x128x128x128_0_0_1_2 : S8x128x130x130.Slices ![0, 0, 1, 2] S8x128x128x128
  slices_S8x128x130x130_S8x128x128x128_0_0_2_0 : S8x128x130x130.Slices ![0, 0, 2, 0] S8x128x128x128
  slices_S8x128x130x130_S8x128x128x128_0_0_2_1 : S8x128x130x130.Slices ![0, 0, 2, 1] S8x128x128x128
  slices_S8x128x130x130_S8x128x128x128_0_0_2_2 : S8x128x130x130.Slices ![0, 0, 2, 2] S8x128x128x128
  bcast_S8x128x128x128_S8x128x1x128x128_0_1_3_4 : S8x128x128x128.BroadcastsInDim S8x128x1x128x128 (![0, 1, 3, 4] : Fin 4 → Fin S8x128x1x128x128.rank)
  concatenates_S8x128x1x128x128_S8x128x1x128x128_S8x128x1x128x128_S8x128x1x128x128_S8x128x1x128x128_S8x128x1x128x128_S8x128x1x128x128_S8x128x1x128x128_S8x128x1x128x128_S8x128x9x128x128_d2 : Shape.Concatenates [S8x128x1x128x128, S8x128x1x128x128, S8x128x1x128x128, S8x128x1x128x128, S8x128x1x128x128, S8x128x1x128x128, S8x128x1x128x128, S8x128x1x128x128, S8x128x1x128x128] S8x128x9x128x128 2
  shapeCasts_S8x1152x128x128_S8x128x9x128x128 : S8x1152x128x128.ShapeCasts S8x128x9x128x128
  reducesTo_S8x128x9x128x128_S8x128x128x128_d2 : S8x128x9x128x128.ReducesTo [2] S8x128x128x128

variable [Facts₀]

class Facts : Prop extends Facts₀ where

variable [Facts]
-- ==== Proof.ConvSpec.lean ====
/-
  A 3×3 depthwise convolution with per-pixel weights, as one function of a zero-padded image and a weight
  array, index by index.

  The image has N·C planes of 128×128 pixels, padded by one pixel on every side to 130×130; plane (n, c) has nine
  weight planes, stored as channels 9c … 9c+8 of a [N, 9C, 128, 128] array. Tap k = 3·ki + kj (row-major over the
  3×3 window) reads the padded pixel (h + ki, w + kj) and the weight plane 9c + k at (h, w); the result at
  (n, c, h, w) is the sum of the nine products. Addition of extended reals is commutative and associative, so
  the sum can be taken in any order and grouping; nothing here needs the entries to be finite.

  Two facts are proved: the nine-term sum written out, and that a channel block of the result is the same
  convolution of the corresponding channel blocks of the two operands (blocks along the batch and channel axes
  only: the pixel axes are never cut).
-/
import Idealize.ShloMosaic.PureOps.Ideal.Laws
import Idealize.ShloMosaic.PureOps.Ideal
import Idealize.ShloMosaic.Lib.ValueIdx

noncomputable section

namespace DepthConv

open Idealize.ShloMosaic Idealize.ShloMosaic.ValueIdx

/-- A sum over nine indices, written out from the left. -/
theorem sum_univ_nine {M : Type*} [AddCommMonoid M] (f : Fin 9 → M) :
    ∑ k, f k = f 0 + f 1 + f 2 + f 3 + f 4 + f 5 + f 6 + f 7 + f 8 := by
  rw [Fin.sum_univ_castSucc, Fin.sum_univ_eight]; rfl

/-- N·C planes of 128×128 pixels. -/
abbrev Img (N C : Nat) : Shape := ⟨4, ![N, C, 128, 128]⟩
/-- The same planes with a border of one pixel. -/
abbrev Pad (N C : Nat) : Shape := ⟨4, ![N, C, 130, 130]⟩

/-- The padded pixel tap `k` reads for the output pixel `i`: `k / 3` rows down, `k % 3` columns right. -/
def padTap {N C : Nat} (i : (Img N C).Idx) (k : Fin 9) : (Pad N C).Idx :=
  ix4 (⟨(i 0).val, (i 0).isLt⟩ : Fin N) (⟨(i 1).val, (i 1).isLt⟩ : Fin C)
    (⟨(i 2).val + k.val / 3, by have h2 : (i 2).val < 128 := (i 2).isLt; have := k.isLt; omega⟩ : Fin 130)
    (⟨(i 3).val + k.val % 3, by have h3 : (i 3).val < 128 := (i 3).isLt; omega⟩ : Fin 130)

/-- The weight tap `k` reads for the output pixel `i`: plane `9c + k` at the same pixel. -/
def wtTap {N C C9 : Nat} (h9 : 9 * C = C9) (i : (Img N C).Idx) (k : Fin 9) : (Img N C9).Idx :=
  ix4 (⟨(i 0).val, (i 0).isLt⟩ : Fin N)
    (⟨9 * (i 1).val + k.val, by have h1 : (i 1).val < C := (i 1).isLt; have := k.isLt; omega⟩ : Fin C9)
    (⟨(i 2).val, (i 2).isLt⟩ : Fin 128) (⟨(i 3).val, (i 3).isLt⟩ : Fin 128)

/-- The convolution: at every output pixel the sum over the nine taps of padded pixel times weight. -/
def conv {N C C9 : Nat} (h9 : 9 * C = C9) (P : (Pad N C).Idx → EReal) (W : (Img N C9).Idx → EReal) :
    (Img N C).Idx → EReal :=
  fun i => ∑ k : Fin 9, P (padTap i k) * W (wtTap h9 i k)

/-- The nine products, added from the left. -/
theorem conv_apply {N C C9 : Nat} (h9 : 9 * C = C9) (P : (Pad N C).Idx → EReal) (W : (Img N C9).Idx → EReal)
    (i : (Img N C).Idx) :
    conv h9 P W i = P (padTap i 0) * W (wtTap h9 i 0) + P (padTap i 1) * W (wtTap h9 i 1)
      + P (padTap i 2) * W (wtTap h9 i 2) + P (padTap i 3) * W (wtTap h9 i 3)
      + P (padTap i 4) * W (wtTap h9 i 4) + P (padTap i 5) * W (wtTap h9 i 5)
      + P (padTap i 6) * W (wtTap h9 i 6) + P (padTap i 7) * W (wtTap h9 i 7)
      + P (padTap i 8) * W (wtTap h9 i 8) :=
  sum_univ_nine _

/-- A BLOCK of the convolution is the convolution of the blocks. The small operands `x0`, `x1` are the big ones
    read through maps `e0`, `e1` that shift the batch coordinate by `bn` and the channel coordinate by `oc`
    (by `9·oc` for the weights) and keep the pixel; the output pixel `i` is `j` shifted the same way. -/
theorem conv_of_blocks {N C C9 n c c9 : Nat} (h9 : 9 * C = C9) (h9' : 9 * c = c9)
    (P : (Pad N C).Idx → EReal) (W : (Img N C9).Idx → EReal)
    (x0 : (Pad n c).Idx → EReal) (x1 : (Img n c9).Idx → EReal)
    (e0 : (Pad n c).Idx → (Pad N C).Idx) (e1 : (Img n c9).Idx → (Img N C9).Idx)
    (h0 : ∀ y, x0 y = P (e0 y)) (h1 : ∀ y, x1 y = W (e1 y))
    (bn oc oc9 : Nat) (hoc : oc9 = 9 * oc)
    (he0 : ∀ y, (e0 y 0).val = bn + (y 0).val ∧ (e0 y 1).val = oc + (y 1).val
      ∧ (e0 y 2).val = (y 2).val ∧ (e0 y 3).val = (y 3).val)
    (he1 : ∀ y, (e1 y 0).val = bn + (y 0).val ∧ (e1 y 1).val = oc9 + (y 1).val
      ∧ (e1 y 2).val = (y 2).val ∧ (e1 y 3).val = (y 3).val)
    (j : (Img n c).Idx) (i : (Img N C).Idx)
    (hi : (i 0).val = bn + (j 0).val ∧ (i 1).val = oc + (j 1).val ∧ (i 2).val = (j 2).val ∧ (i 3).val = (j 3).val) :
    conv h9' x0 x1 j = conv h9 P W i := by
  unfold conv
  refine Finset.sum_congr rfl fun k _ => ?_
  rw [h0, h1]
  obtain ⟨i0, i1, i2, i3⟩ := hi
  obtain ⟨a0, a1, a2, a3⟩ := he0 (padTap j k)
  obtain ⟨b0, b1, b2, b3⟩ := he1 (wtTap h9' j k)
  have ea : e0 (padTap j k) = padTap i k := funext fun a => Fin.ext (by
    match a with
    | ⟨0, _⟩ => show (e0 (padTap j k) 0).val = (i 0).val; rw [a0, i0]; rfl
    | ⟨1, _⟩ => show (e0 (padTap j k) 1).val = (i 1).val; rw [a1, i1]; rfl
    | ⟨2, _⟩ => show (e0 (padTap j k) 2).val = (i 2).val + k.val / 3; rw [a2, i2]; rfl
    | ⟨3, _⟩ => show (e0 (padTap j k) 3).val = (i 3).val + k.val % 3; rw [a3, i3]; rfl)
  have eb : e1 (wtTap h9' j k) = wtTap h9 i k := funext fun a => Fin.ext (by
    match a with
    | ⟨0, _⟩ => show (e1 (wtTap h9' j k) 0).val = (i 0).val; rw [b0, i0]; rfl
    | ⟨1, _⟩ =>
      show (e1 (wtTap h9' j k) 1).val = 9 * (i 1).val + k.val
      rw [b1, i1, hoc]; show 9 * oc + (9 * (j 1).val + k.val) = _; omega
    | ⟨2, _⟩ => show (e1 (wtTap h9' j k) 2).val = (i 2).val; rw [b2, i2]; rfl
    | ⟨3, _⟩ => show (e1 (wtTap h9' j k) 3).val = (i 3).val; rw [b3, i3]; rfl)
  rw [ea, eb]

end DepthConv

end
-- ==== Proof.Body.lean ====
/-
  What one grid point of the kernel stores, read at an index.

  The body holds a block of sixteen padded planes, `x0 : [1, 16, 130, 130]`, and their 144 weight planes,
  `x1 : [1, 144, 128, 128]`, which it regroups as `[16, 9, 128, 128]`: weight plane `9·cl + k` becomes entry
  `(cl, k)`. For each of the nine taps `k = 3·ki + kj` it loads the 128×128 window of every padded plane that
  starts at `(ki, kj)`, multiplies it by weight plane `k` of each channel, and adds the product onto an accumulator
  that starts at zero. So the stored block at `(0, cl, h, w)` is
  `0 + x0(cl, h, w)·x1(9cl, h, w) + x0(cl, h, w+1)·x1(9cl+1, h, w) + … + x0(cl, h+2, w+2)·x1(9cl+8, h, w)`,
  the nine products added from the left: the 3×3 convolution of the block (`DepthConv.conv`).
-/
import proofs.«164514_j67654324846947_1_alg».proof.Proof.Gen.KernelIdeal.Frame
import proofs.«164514_j67654324846947_1_alg».proof.Proof.ConvSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx DepthConv

theorem hz : (![0, 0, 0, 0] : Fin 4 → Nat) = fun _ => 0 := funext fun a => by fin_cases a <;> rfl

/-- The regrouped weights: entry `(cl, k)` of the `[16, 9, 128, 128]` view is weight plane `9·cl + k` of the block. -/
theorem weights_apply (x1 : Vec Ideal S1x144x128x128 .f32) (cl : Fin 16) (k : Fin 9) (h w : Fin 128) :
    k0_pay2 x1 (ix4 cl k h w)
      = x1 (ix4 (0 : Fin 1) (⟨9 * cl.val + k.val, by omega⟩ : Fin 144) h w) := by
  unfold k0_pay2
  refine (shapeCast_apply _ _ (ix4 cl k h w) (ix3 (⟨9 * cl.val + k.val, by omega⟩ : Fin 144) h w) ?_).trans ?_
  · rw [Shape.rowMajor_val_three, Shape.rowMajor_val_four]
    show ((9 * cl.val + k.val) * 128 + h.val) * 128 + w.val = (((cl.val * 9 + k.val) * 128 + h.val) * 128 + w.val)
    omega
  · exact shapeCast_1abc_abc_apply _ _ _ _ _

/-- Weight plane `o` of every channel: the `[16, 9, 128, 128]` view cut to its entry `o` on the tap axis, that unit
    axis dropped. -/
theorem plane_apply (v2 : FVec Ideal S16x9x128x128 .f32) (o : Nat) (ho : o < 9)
    (hs : S16x9x128x128.Slices ![0, o, 0, 0] S16x1x128x128) (hc : S16x1x128x128.ShapeCasts S16x128x128)
    (cl : Fin 16) (h w : Fin 128) :
    shapeCast S16x128x128 (extractStridedSlice S16x1x128x128 ![0, o, 0, 0] v2 hs) hc (ix3 cl h w)
      = v2 (ix4 cl (⟨o, ho⟩ : Fin 9) h w) := by
  refine (shapeCast_apply _ hc (ix3 cl h w) (ix4 cl (0 : Fin 1) h w) ?_).trans ?_
  · rw [Shape.rowMajor_val_four, Shape.rowMajor_val_three]
    show ((cl.val * 1 + 0) * 128 + h.val) * 128 + w.val = (cl.val * 128 + h.val) * 128 + w.val
    omega
  · exact slice4_axis1_apply o v2 hs cl (0 : Fin 1) h w (⟨o, ho⟩ : Fin 9) rfl

/-- The window of the padded block that starts at `(ki, kj)`, its leading unit axis dropped: at `(cl, h, w)` the
    padded pixel `(h + ki, w + kj)` of plane `cl`. -/
theorem window_apply (x0 : Vec Ideal S1x16x130x130 .f32) (ki kj : Nat) (hki : ki < 3) (hkj : kj < 3)
    (inb : ∀ a, (![0, 0, ki, kj] : Fin 4 → Nat) a + S1x16x128x128.size a ≤ S1x16x130x130.size a)
    (hc : S1x16x128x128.ShapeCasts S16x128x128) (cl : Fin 16) (h w : Fin 128) :
    shapeCast S16x128x128 (View.ld x0 (Rect.unit (s := S1x16x130x130) ![0, 0, ki, kj] S1x16x128x128.size inb)) hc (ix3 cl h w)
      = x0 (ix4 (0 : Fin 1) cl (⟨h.val + ki, by omega⟩ : Fin 130) (⟨w.val + kj, by omega⟩ : Fin 130)) := by
  refine (shapeCast_1abc_abc_apply _ hc cl h w).trans ?_
  show x0 _ = x0 _
  refine congrArg x0 (funext fun a => Fin.ext ?_)
  match a with
  | ⟨0, _⟩ => show 0 + 1 * 0 = 0; rfl
  | ⟨1, _⟩ => show 0 + 1 * cl.val = cl.val; omega
  | ⟨2, _⟩ => show ki + 1 * h.val = h.val + ki; omega
  | ⟨3, _⟩ => show kj + 1 * w.val = w.val + kj; omega

/-- One tap's product at an index: the padded pixel `k / 3` rows down and `k % 3` columns right, times weight plane
    `9·cl + k` at the pixel. -/
theorem tap_apply (x0 : Vec Ideal S1x16x130x130 .f32) (x1 : Vec Ideal S1x144x128x128 .f32) (k : Fin 9)
    (ki kj o : Nat) (hki : ki = k.val / 3) (hkj : kj = k.val % 3) (ho : o = k.val)
    (inb : ∀ a, (![0, 0, ki, kj] : Fin 4 → Nat) a + S1x16x128x128.size a ≤ S1x16x130x130.size a)
    (hc1 : S1x16x128x128.ShapeCasts S16x128x128)
    (hs : S16x9x128x128.Slices ![0, o, 0, 0] S16x1x128x128) (hc2 : S16x1x128x128.ShapeCasts S16x128x128)
    (cl : Fin 16) (h w : Fin 128) :
    mulf (shapeCast S16x128x128 (View.ld x0 (Rect.unit (s := S1x16x130x130) ![0, 0, ki, kj] S1x16x128x128.size inb)) hc1)
        (shapeCast S16x128x128 (extractStridedSlice S16x1x128x128 ![0, o, 0, 0] (k0_pay2 x1) hs) hc2) (ix3 cl h w)
      = x0 (padTap (ix4 (0 : Fin 1) cl h w) k) * x1 (wtTap (by decide : 9 * 16 = 144) (ix4 (0 : Fin 1) cl h w) k) := by
  have hk := k.isLt
  refine (mulf_apply _ _ _).trans ?_
  rw [window_apply x0 ki kj (by omega) (by omega) inb hc1 cl h w, plane_apply _ o (by omega) hs hc2 cl h w, weights_apply]
  subst hki hkj ho
  rfl

/-- WHAT ONE POINT STORES: the block's 3×3 convolution with its own weight planes — the nine products added from
    the left onto zero. -/
theorem stored_apply (x0 : Vec Ideal S1x16x130x130 .f32) (x1 : Vec Ideal S1x144x128x128 .f32)
    (cl : Fin 16) (h w : Fin 128) :
    out0_2 x0 x1 (ix4 (0 : Fin 1) cl h w) = conv (by decide : 9 * 16 = 144) x0 x1 (ix4 (0 : Fin 1) cl h w) := by
  unfold out0_2
  rw [View.canon_unit_zero hz]
  simp only [View.ld_unit_zero (S := S1x144x128x128) hz]
  rw [conv_apply]
  unfold k0_pay1 k0_pay3 k0_pay4
  refine (shapeCast_abc_1abc_apply _ _ (0 : Fin 1) cl h w).trans ?_
  simp only [addf_apply, broadcast_apply]
  rw [tap_apply x0 x1 0 0 0 0 rfl rfl rfl _ _ _ _ cl h w, tap_apply x0 x1 1 0 1 1 rfl rfl rfl _ _ _ _ cl h w,
    tap_apply x0 x1 2 0 2 2 rfl rfl rfl _ _ _ _ cl h w, tap_apply x0 x1 3 1 0 3 rfl rfl rfl _ _ _ _ cl h w,
    tap_apply x0 x1 4 1 1 4 rfl rfl rfl _ _ _ _ cl h w, tap_apply x0 x1 5 1 2 5 rfl rfl rfl _ _ _ _ cl h w,
    tap_apply x0 x1 6 2 0 6 rfl rfl rfl _ _ _ _ cl h w, tap_apply x0 x1 7 2 1 7 rfl rfl rfl _ _ _ _ cl h w,
    tap_apply x0 x1 8 2 2 8 rfl rfl rfl _ _ _ _ cl h w]
  rw [show (Scalar.ofBits .f32 0x00000000#32 : Ideal .f32) = 0 from Ideal.ofBits_zero_f32, zero_add]

end Cert.KernelIdeal.Body

end
-- ==== Proof.KernelValue.lean ====
/-
  The kernel's result array after the run, as one function of the argument arrays.

  The grid has 8×8 points; point (ni, ci) works on batch entry `ni` and channels `16·ci … 16·ci + 15`: its blocks
  of the padded image, of the weights and of the result sit at batch offset `ni` and channel offsets `16·ci`,
  `144·ci = 9·(16·ci)` and `16·ci`, and cover the pixel axes whole. What the point writes back is the 3×3
  convolution of its two input blocks (Body.lean), and a block of the convolution is the convolution of the blocks
  (ConvSpec.lean), so the point writes back its block of the convolution of the WHOLE padded image with the whole
  weight array. The 64 blocks tile the result array (row `c` of batch entry `n` lies in the block of point
  `(n, c / 16)`), so after the run the array is that convolution. The padded image is what the host operations
  before the launch leave: the first argument with a border of zeros.
-/
import proofs.«164514_j67654324846947_1_alg».proof.Proof.Gen.KernelIdeal.Value
import proofs.«164514_j67654324846947_1_alg».proof.Proof.Body
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx DepthConv
open Idealize.ShloMosaic.Pipeline (Dat)

variable (m : (ℓ : Loc nD τ sig) → Buf (Elt Ideal) ℓ) (ρ : Dev nD → PrngReg)

/-- The image with its border of zeros, as the host computes it before the launch. -/
def padded (x : S8x128x128x128.Idx → Ideal .f32) : S8x128x130x130.Idx → Ideal .f32 :=
  pad S8x128x130x130 ![0, 0, 1, 1] ![0, 0, 1, 1] ![0, 0, 0, 0] x (sitofp (F := Ideal) .f32 (constantI S_ 32 0#32))
    Facts₀.pads_S8x128x128x128_S8x128x130x130_000_000_110_110 Facts₀.h_S_

/-- The region finds the padded image in the first window's array. -/
theorem V_main_v0 (c : Dev nD) :
    (V m c main_v0 : S8x128x130x130.Idx → Ideal .f32) = padded (m ((c : Thread nD τ).loc main_arg0)) := by
  dsimp only [V]
  simp only [hostOps0, hostOps0_1, List.flatten_cons, List.flatten_nil, List.append_nil, List.cons_append,
    List.nil_append]
  after_results
  rfl

/-- The printed index maps over the 64 grid points: all three windows move together along the batch and channel
    axes and never along the pixel axes. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) < 8 ∧ win0_2.index t (1 : Fin 4) < 8 :=
  (by decide +kernel : ∀ t : Fin grid0.N, _)

/-- Every (batch entry, channel block) pair is some point's. -/
theorem idx_onto : ∀ (q0 : Fin 8) (q1 : Fin 8), ∃ t : Fin cfg0.N, win0_2.index t = ![q0.val, q1.val, 0, 0] :=
  (by decide +kernel : ∀ (q0 : Fin 8) (q1 : Fin 8), ∃ t : Fin grid0.N, win0_2.index t = ![q0.val, q1.val, 0, 0])

/-- WHAT POINT `t` WRITES BACK is its block of the convolution of the whole padded image with the whole weight array. -/
theorem flushed_eq (c : Dev nD) (t : Fin cfg0.N) :
    (dats m 0 c).flushed 2 t = ((cfg0.win 2).blk t).view.read (Elt Ideal)
      (conv (by decide : 9 * 128 = 1152) (V m c main_v0) (V m c main_arg1)) := by
  rw [Value.flushed2]
  obtain ⟨e00, e01, e02, e03, e10, e11, e12, e13, e22, e23, b0, b1⟩ := idx_facts t
  have key : ∀ j : S1x16x128x128.Idx, out0_2 (iblk m c 0 t) (iblk m c 1 t) j
      = conv (by decide : 9 * 128 = 1152) (V m c main_v0) (V m c main_arg1) (((cfg0.win 2).blk t).view.emb j) := by
    intro j
    obtain ⟨u, cl, h, w, rfl⟩ : ∃ (u : Fin 1) (cl : Fin 16) (h w : Fin 128), j = ix4 u cl h w :=
      ⟨j 0, j 1, j 2, j 3, eq_ix4 j⟩
    obtain rfl : u = 0 := Subsingleton.elim _ _
    refine (Body.stored_apply (iblk m c 0 t) (iblk m c 1 t) cl h w).trans ?_
    refine conv_of_blocks (by decide : 9 * 128 = 1152) (by decide : 9 * 16 = 144) (V m c main_v0) (V m c main_arg1)
      (iblk m c 0 t) (iblk m c 1 t)
      (fun y => ((cfg0.win 0).blk t).view.emb y) (fun y => ((cfg0.win 1).blk t).view.emb y)
      (fun y => rfl) (fun y => rfl)
      (win0_2.index t (0 : Fin 4)) (win0_2.index t (1 : Fin 4) * 16) (win0_2.index t (1 : Fin 4) * 144) (by omega)
      (fun y => ⟨?_, ?_, ?_, ?_⟩) (fun y => ⟨?_, ?_, ?_, ?_⟩) _ _ ⟨?_, ?_, ?_, ?_⟩
    · show win0_0.index t (0 : Fin 4) * 1 + 1 * (y 0).val = _; omega
    · show win0_0.index t (1 : Fin 4) * 16 + 1 * (y 1).val = _; omega
    · show win0_0.index t (2 : Fin 4) * 130 + 1 * (y 2).val = _; omega
    · show win0_0.index t (3 : Fin 4) * 130 + 1 * (y 3).val = _; omega
    · show win0_1.index t (0 : Fin 4) * 1 + 1 * (y 0).val = _; omega
    · show win0_1.index t (1 : Fin 4) * 144 + 1 * (y 1).val = _; omega
    · show win0_1.index t (2 : Fin 4) * 128 + 1 * (y 2).val = _; omega
    · show win0_1.index t (3 : Fin 4) * 128 + 1 * (y 3).val = _; omega
    · show win0_2.index t (0 : Fin 4) * 1 + 1 * 0 = win0_2.index t (0 : Fin 4) + 0; omega
    · show win0_2.index t (1 : Fin 4) * 16 + 1 * cl.val = win0_2.index t (1 : Fin 4) * 16 + cl.val; omega
    · show win0_2.index t (2 : Fin 4) * 128 + 1 * h.val = h.val; omega
    · show win0_2.index t (3 : Fin 4) * 128 + 1 * w.val = w.val; omega
  exact funext key

/-- An index of the result array is in point `t`'s block iff each coordinate is in the block's range on its axis. -/
theorem mem_blk (t : Fin cfg0.N) (i : S8x128x128x128.Idx) :
    i ∈ ((cfg0.win 2).blk t).view.set ↔ ∀ a : Fin 4, win0_2.index t a * S1x16x128x128.size a ≤ (i a).val
      ∧ (i a).val < win0_2.index t a * S1x16x128x128.size a + S1x16x128x128.size a := by
  show i ∈ ((View.whole main_v1).slice (win0_2.rect t)).set ↔ _
  rw [View.set_slice_whole, Rect.mem_set_unit]
  exact Iff.rfl

/-- The blocks tile the result array: plane `(n, c)` lies in the block of the point with batch entry `n` and
    channel block `c / 16`. -/
theorem cover (i : S8x128x128x128.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 128 := (i 2).isLt
  have hi3 : (i 3).val < 128 := (i 3).isLt
  obtain ⟨t, ht⟩ := idx_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- THE RESULT ARRAY after the run: the convolution of the zero-padded first argument with the second. -/
theorem final (c : Dev nD) : (dats m 0 c).arrAt 2 cfg0.N
    = conv (by decide : 9 * 128 = 1152) (padded (m ((c : Thread nD τ).loc main_arg0))) (m ((c : Thread nD τ).loc main_arg1)) := by
  rw [← V_main_v0 m c, ← V_main_arg1 m c]
  exact (dats m 0 c).arrAt_eq_of_cover 2 _ (fun t _ => flushed_eq m c t) cover

/-- The run, read: the result array at the convolution, the arguments unchanged. -/
theorem run : θ_run defs (onTc (τ := τ) (main (F := Ideal))) ⟨m, fun _ => 0, ρ⟩ fun r => ∀ c : Dev nD,
      r.2.mem ((c : Thread nD τ).loc main_v1)
        = conv (by decide : 9 * 128 = 1152) (padded (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Hand

end
-- ==== Proof.RefValue.lean ====
/-
  The reference's result as the same convolution.

  The reference pads the image with a border of zeros, cuts the nine 128×128 windows of every padded plane that
  start at `(ki, kj)`, `ki, kj < 3`, stacks them along a new axis in row-major order of `(ki, kj)`, regroups the
  weight array `[8, 1152, 128, 128]` as `[8, 128, 9, 128, 128]` (weight plane `9c + k` becomes entry `(c, k)`),
  multiplies the two stacks entry by entry and sums over the new axis from zero. Entry `k` of the stack at
  `(n, c, h, w)` is the padded pixel `(h + k / 3, w + k % 3)` of plane `(n, c)`, so the sum is
  `DepthConv.conv` of the padded image and the weights.
-/
import proofs.«164514_j67654324846947_1_alg».proof.Proof.Gen.ReferenceIdeal.Read
import proofs.«164514_j67654324846947_1_alg».proof.Proof.ConvSpec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.Read Idealize.ShloMosaic Idealize.ShloMosaic.ValueIdx DepthConv

/-- The index of a stacked piece (a `[8, 128, 1, 128, 128]` array) that sits over the output pixel `i`. -/
abbrev over (i : S8x128x128x128.Idx) : S8x128x1x128x128.Idx :=
  ix5 (⟨(i 0).val, (i 0).isLt⟩ : Fin 8) (⟨(i 1).val, (i 1).isLt⟩ : Fin 128) (0 : Fin 1)
    (⟨(i 2).val, (i 2).isLt⟩ : Fin 128) (⟨(i 3).val, (i 3).isLt⟩ : Fin 128)

/-- Off the stacking axis, the piece index has the stack index's coordinates. -/
theorem over_off (i : S8x128x128x128.Idx) (k : Fin 9) :
    ∀ b : Fin S8x128x1x128x128.rank, b.cast (rfl : S8x128x1x128x128.rank = S8x128x9x128x128.rank) ≠ (2 : Fin 5) →
      (over i b).val = (idx_main_v22 i k (b.cast rfl)).val := fun b hb => by
  match b with
  | ⟨0, _⟩ => rfl
  | ⟨1, _⟩ => rfl
  | ⟨2, _⟩ => exact absurd rfl hb
  | ⟨3, _⟩ => rfl
  | ⟨4, _⟩ => rfl

set_option hygiene false in
/-- Entry `n` of the stack: piece `n` of the concatenation over the pixel, which is a window of the padded image
    given a unit axis; `r` and `q` spell the window's row and column at the pixel. -/
local macro "stack_entry" n:num vb:ident vba:ident vsa:ident r:term:max q:term:max : tactic => `(tactic| (
    refine (concatenate_apply_piece (2 : Fin 5) _ _ (idx_main_v22 i ⟨$n, hk⟩) $n ?hk S8x128x1x128x128
      ($vb (F := Ideal) x0) ?hx rfl $n ?hp (over i) (over_off i _) rfl).trans ?_
    case hk => exact (by decide : $n < 9)
    case hx => rfl
    case hp => rfl
    rw [$vba:ident, $vsa:ident]
    refine congrArg _ (funext fun a => Fin.ext ?_)
    match a with
    | ⟨0, _⟩ => rfl
    | ⟨1, _⟩ => rfl
    | ⟨2, _⟩ => show $r = (i 2).val + $n / 3; omega
    | ⟨3, _⟩ => show $q = (i 3).val + $n % 3; omega))

/-- ENTRY `k` OF THE STACK over the output pixel `i` is the padded pixel tap `k` reads. -/
theorem stack_apply (x0 : S8x128x128x128.Idx → Ideal .f32) (i : S8x128x128x128.Idx) (k : Fin 9) :
    val_main_v19 (F := Ideal) x0 (idx_main_v22 i k) = val_main_v0 (F := Ideal) x0 (padTap i k) := by
  unfold val_main_v19
  match k with
  | ⟨0, hk⟩ => stack_entry 0 val_main_v10 val_main_v10_apply val_main_v1_apply ((i 2).val) ((i 3).val)
  | ⟨1, hk⟩ => stack_entry 1 val_main_v11 val_main_v11_apply val_main_v2_apply ((i 2).val) (1 + (i 3).val)
  | ⟨2, hk⟩ => stack_entry 2 val_main_v12 val_main_v12_apply val_main_v3_apply ((i 2).val) (2 + (i 3).val)
  | ⟨3, hk⟩ => stack_entry 3 val_main_v13 val_main_v13_apply val_main_v4_apply (1 + (i 2).val) ((i 3).val)
  | ⟨4, hk⟩ => stack_entry 4 val_main_v14 val_main_v14_apply val_main_v5_apply (1 + (i 2).val) (1 + (i 3).val)
  | ⟨5, hk⟩ => stack_entry 5 val_main_v15 val_main_v15_apply val_main_v6_apply (1 + (i 2).val) (2 + (i 3).val)
  | ⟨6, hk⟩ => stack_entry 6 val_main_v16 val_main_v16_apply val_main_v7_apply (2 + (i 2).val) ((i 3).val)
  | ⟨7, hk⟩ => stack_entry 7 val_main_v17 val_main_v17_apply val_main_v8_apply (2 + (i 2).val) (1 + (i 3).val)
  | ⟨8, hk⟩ => stack_entry 8 val_main_v18 val_main_v18_apply val_main_v9_apply (2 + (i 2).val) (2 + (i 3).val)
  | ⟨n + 9, hk⟩ => exact absurd hk (by omega)

/-- THE REGROUPED WEIGHTS: entry `(c, k)` at a pixel is weight plane `9c + k` there. -/
theorem weights_apply (x1 : S8x1152x128x128.Idx → Ideal .f32) (i : S8x128x128x128.Idx) (k : Fin 9) :
    val_main_v20 (F := Ideal) x1 (idx_main_v22 i k) = x1 (wtTap (by decide : 9 * 128 = 1152) i k) := by
  rw [val_main_v20_apply]
  have h0 : (i 0).val < 8 := (i 0).isLt
  have h1 : (i 1).val < 128 := (i 1).isLt
  have h2 : (i 2).val < 128 := (i 2).isLt
  have h3 : (i 3).val < 128 := (i 3).isLt
  have hk : k.val < 9 := k.isLt
  refine congrArg x1 (funext fun a => Fin.ext ?_)
  match a with
  | ⟨0, _⟩ =>
    show (((((i 0).val * 128 + (i 1).val) * 9 + k.val) * 128 + (i 2).val) * 128 + (i 3).val) / 18874368 = (i 0).val
    omega
  | ⟨1, _⟩ =>
    show (((((i 0).val * 128 + (i 1).val) * 9 + k.val) * 128 + (i 2).val) * 128 + (i 3).val) / 16384 % 1152 = 9 * (i 1).val + k.val
    omega
  | ⟨2, _⟩ =>
    show (((((i 0).val * 128 + (i 1).val) * 9 + k.val) * 128 + (i 2).val) * 128 + (i 3).val) / 128 % 128 = (i 2).val
    omega
  | ⟨3, _⟩ =>
    show (((((i 0).val * 128 + (i 1).val) * 9 + k.val) * 128 + (i 2).val) * 128 + (i 3).val) % 128 = (i 3).val
    omega

/-- THE REFERENCE'S RESULT is the convolution of the padded image it builds with the weight array: the sum over the
    stacking axis, from zero, of stack entry times regrouped weight. -/
theorem result_eq (x0 : S8x128x128x128.Idx → Ideal .f32) (x1 : S8x1152x128x128.Idx → Ideal .f32) :
    val_main_v22 (F := Ideal) x0 x1 = conv (by decide : 9 * 128 = 1152) (val_main_v0 (F := Ideal) x0) x1 := by
  funext i
  rw [val_main_v22_apply, val_main_cst_apply, Ideal.ofBits_def, Ideal.ofBits_zero_f32, zero_add]
  unfold conv
  refine Finset.sum_congr rfl fun k _ => ?_
  rw [val_main_v21_apply, Ideal.mulf_def, stack_apply, weights_apply]

end Cert.ReferenceIdeal.Hand

end
-- ==== Proof.lean ====
/-
  A 3×3 depthwise convolution with per-pixel weights: the Pallas kernel against the jnp reference, equal as
  extended reals.

  Both programs first pad the image `x : [8, 128, 128, 128]` with a border of zeros to `[8, 128, 130, 130]` (the same
  host operation in both). The kernel then runs an 8×8 grid, one batch entry and sixteen channels per point, and at
  every pixel adds, from the left onto zero, the nine products of the padded pixel `(h + ki, w + kj)` with weight plane
  `9c + 3ki + kj`. The reference stacks the nine shifted windows, multiplies by the regrouped weights
  `[8, 128, 9, 128, 128]` and sums over the tap axis. Both are `DepthConv.conv` of the padded image and the weights
  (Proof/ConvSpec.lean): the kernel by Proof/Body.lean (one point's block) and Proof/KernelValue.lean (the 64 blocks
  tile the result), the reference by Proof/RefValue.lean. A sum of extended reals does not depend on the order or
  grouping of its terms, so no finiteness of the inputs is used. The kernel's idealization rewrites nothing, so
  `preserves` is trivial; the three frames are the generated frame runs.
-/
import proofs.«164514_j67654324846947_1_alg».proof.Defs
import proofs.«164514_j67654324846947_1_alg».proof.Proof.Gen.Kernel
import proofs.«164514_j67654324846947_1_alg».proof.Proof.Gen.Kernel.Skeleton
import proofs.«164514_j67654324846947_1_alg».proof.Proof.Gen.Kernel.Launch
import proofs.«164514_j67654324846947_1_alg».proof.Proof.Gen.Kernel.Points
import proofs.«164514_j67654324846947_1_alg».proof.Proof.Gen.Kernel.Frame
import proofs.«164514_j67654324846947_1_alg».proof.Proof.Gen.KernelIdeal
import proofs.«164514_j67654324846947_1_alg».proof.Proof.Gen.KernelIdeal.Skeleton
import proofs.«164514_j67654324846947_1_alg».proof.Proof.Gen.KernelIdeal.Launch
import proofs.«164514_j67654324846947_1_alg».proof.Proof.Gen.KernelIdeal.Points
import proofs.«164514_j67654324846947_1_alg».proof.Proof.Gen.KernelIdeal.Frame
import proofs.«164514_j67654324846947_1_alg».proof.Proof.Gen.ReferenceIdeal
import proofs.«164514_j67654324846947_1_alg».proof.Proof.Gen.Pre_finite_inputs
import proofs.«164514_j67654324846947_1_alg».proof.Proof.Gen.KernelIdeal.Value
import proofs.«164514_j67654324846947_1_alg».proof.Proof.Gen.ReferenceIdeal.Run
import proofs.«164514_j67654324846947_1_alg».proof.Proof.Gen.ReferenceIdeal.Read
import proofs.«164514_j67654324846947_1_alg».proof.Proof.KernelValue
import proofs.«164514_j67654324846947_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the convolution of the zero-padded first argument with the second; so does the
    reference's, from arguments that agree; and the two programs pad the image by the same operation. -/
theorem algebraic : Cert.algebraic_KernelIdeal_ReferenceIdeal := by
  intro m ρ m' ρ' _ hagree
  refine ⟨fun c => DepthConv.conv (by decide : 9 * 128 = 1152)
      (Cert.KernelIdeal.Hand.padded (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Hand.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
